-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64x256 : Shape := ⟨3, ![2048, 64, 256]⟩
abbrev S64x256 : Shape := ⟨2, ![64, 256]⟩
abbrev S768x256 : Shape := ⟨2, ![768, 256]⟩
abbrev S768 : Shape := ⟨1, ![768]⟩
abbrev S_ : Shape := ⟨0, ![]⟩

class Facts : Prop where
  bcast_S_S2048x64x256 : S_.BroadcastsInDim S2048x64x256 (![] : Fin 0 → Fin S2048x64x256.rank)
  reducesTo_S2048x64x256_S_d0_1_2 : S2048x64x256.ReducesTo [0, 1, 2] S_
  h_S_ : 0 < S_.numel
  bcast_S_S64x256 : S_.BroadcastsInDim S64x256 (![] : Fin 0 → Fin S64x256.rank)
  reducesTo_S64x256_S_d0_1 : S64x256.ReducesTo [0, 1] S_
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768 .f32) (main_v13 : IVec S_ 1) (main_v16 : IVec S768x256 1) : IVec S_ 1 :=
  let main_c_5 : IVec S_ 1 := constantI S_ 1 1#1
  let main_v17 : IVec S_ 1 := (fun x v => Host.reduce IntOp.andi x v reducesTo_S768x256_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S2048x64x256 .f32) (main_arg1 : FVec F S64x256 .f32) (main_arg2 : FVec F S768x256 .f32) (main_arg3 : FVec F S768x256 .f32) (main_arg4 : FVec F S768 .f32) (main_arg5 : FVec F S768 .f32) : IVec S_ 1 :=
  let main_v0 : FVec F S2048x64x256 .f32 := Host.absf main_arg0
  let main_cst : FVec F S_ .f32 := constant S_ .f32 0x7F800000#32
  let main_v1 : FVec F S2048x64x256 .f32 := broadcastInDim S2048x64x256 ![] bcast_S_S2048x64x256 main_cst
  let main_v2 : IVec S2048x64x256 1 := cmpf .olt main_v0 main_v1
  let main_c : IVec S_ 1 := constantI S_ 1 1#1
  let main_v3 : IVec S_ 1 := (fun x v => Host.reduce IntOp.andi x v reducesTo_S2048x64x256_S_d0_1_2 h_S_) main_v2 main_c
  let main_v4 : FVec F S64x256 .f32 := Host.absf main_arg1
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S768x256 .f32 := Host.absf main_arg3
  let main_cst_4 : FVec F S_ .f32 := constant S_ .f32 0x7F800000#32
  let main_v15 : FVec F S768x256 .f32 := broadcastInDim S768x256 ![] bcast_S_S768x256 main_cst_4
  let main_v16 : IVec S768x256 1 := cmpf .olt main_v14 main_v15
  fn_part1 (F := F) main_arg4 main_arg5 main_v13 main_v16
-- ==== Kernel.lean ====
abbrev S2048x64x256 : Shape := ⟨3, ![2048, 64, 256]⟩
abbrev S64x256 : Shape := ⟨2, ![64, 256]⟩
abbrev S768x256 : Shape := ⟨2, ![768, 256]⟩
abbrev S768 : Shape := ⟨1, ![768]⟩
abbrev S1x768 : Shape := ⟨2, ![1, 768]⟩
abbrev S256x768 : Shape := ⟨2, ![256, 768]⟩
abbrev S64x768 : Shape := ⟨2, ![64, 768]⟩
abbrev S64x64x256 : Shape := ⟨3, ![64, 64, 256]⟩
abbrev S4096x256 : Shape := ⟨2, ![4096, 256]⟩
abbrev S256x256 : Shape := ⟨2, ![256, 256]⟩
abbrev S1x256 : Shape := ⟨2, ![1, 256]⟩
abbrev S1x1x256 : Shape := ⟨3, ![1, 1, 256]⟩
abbrev S1x64x256 : Shape := ⟨3, ![1, 64, 256]⟩

abbrev nBuf : Space → Nat
  | .hbm => 15
  | .vmem => 8
  | .smem => 0
  | _ => 0

abbrev bufTy : (tb : Table) → Fin (tcTables nBuf tb) → BufTy
  | .hbm, ⟨0, _⟩ => ⟨S2048x64x256, .f32⟩
  | .hbm, ⟨1, _⟩ => ⟨S64x256, .f32⟩
  | .hbm, ⟨2, _⟩ => ⟨S768x256, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S1x768, .f32⟩
  | .hbm, ⟨7, _⟩ => ⟨S256x768, .f32⟩
  | .hbm, ⟨8, _⟩ => ⟨S64x768, .f32⟩
  | .hbm, ⟨9, _⟩ => ⟨S1x768, .f32⟩
  | .hbm, ⟨10, _⟩ => ⟨S64x768, .f32⟩
  | .hbm, ⟨11, _⟩ => ⟨S64x768, .f32⟩
  | .hbm, ⟨12, _⟩ => ⟨S2048x64x256, .f32⟩
  | .hbm, ⟨13, _⟩ => ⟨S1x64x256, .f32⟩
  | .hbm, ⟨14, _⟩ => ⟨S64x256, .f32⟩
  | .local _ .vmem, ⟨0, _⟩ => ⟨S64x64x256, .f32⟩
  | .local _ .vmem, ⟨1, _⟩ => ⟨S64x64x256, .f32⟩
  | .local _ .vmem, ⟨2, _⟩ => ⟨S768x256, .f32⟩
  | .local _ .vmem, ⟨3, _⟩ => ⟨S1x768, .f32⟩
  | .local _ .vmem, ⟨4, _⟩ => ⟨S64x768, .f32⟩
  | .local _ .vmem, ⟨5, _⟩ => ⟨S64x256, .f32⟩
  | .local _ .vmem, ⟨6, _⟩ => ⟨S64x64x256, .f32⟩
  | .local _ .vmem, ⟨7, _⟩ => ⟨S64x64x256, .f32⟩
  | _, _ => ⟨S2048x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S768_S1x768 : S768.ShapeCasts S1x768
  transposes_S768x256_S256x768_1_0 : S768x256.Transposes [1, 0] S256x768
  bcast_S768_S1x768_1 : S768.BroadcastsInDim S1x768 (![1] : Fin 1 → Fin S1x768.rank)
  bcast_S1x768_S64x768_0_1 : S1x768.BroadcastsInDim S64x768 (![0, 1] : Fin 2 → Fin S64x768.rank)
  inb_S64x64x256_S64x64x256_0_0_0 : ∀ a, (![0, 0, 0] : Fin 3 → Nat) a + S64x64x256.size a ≤ S64x64x256.size a
  h_S64x64x256 : 0 < S64x64x256.numel
  bitsLt_bf16_f32 : FTy.bits .bf16 < FTy.bits .f32
  shapeCasts_S64x64x256_S4096x256 : S64x64x256.ShapeCasts S4096x256
  inb_S768x256_S256x256_0_0 : ∀ a, (![0, 0] : Fin 2 → Nat) a + S256x256.size a ≤ S768x256.size a
  h_S256x256 : 0 < S256x256.numel
  inb_S1x768_S1x256_0_0 : ∀ a, (![0, 0] : Fin 2 → Nat) a + S1x256.size a ≤ S1x768.size a
  h_S1x256 : 0 < S1x256.numel
  shapeCasts_S1x256_S1x256 : S1x256.ShapeCasts S1x256
  shapeCasts_S1x256_S1x1x256 : S1x256.ShapeCasts S1x1x256
  shapeCasts_S4096x256_S64x64x256 : S4096x256.ShapeCasts S64x64x256
  broadcasts_S1x1x256_S64x64x256 : S1x1x256.Broadcasts S64x64x256
  inb_S64x768_S64x256_0_0 : ∀ a, (![0, 0] : Fin 2 → Nat) a + S64x256.size a ≤ S64x768.size a
  h_S64x256 : 0 < S64x256.numel
  shapeCasts_S64x256_S64x256 : S64x256.ShapeCasts S64x256
  shapeCasts_S64x256_S1x64x256 : S64x256.ShapeCasts S1x64x256
  broadcasts_S1x64x256_S64x64x256 : S1x64x256.Broadcasts S64x64x256
  inb_S768x256_S256x256_256_0 : ∀ a, (![256, 0] : Fin 2 → Nat) a + S256x256.size a ≤ S768x256.size a
  inb_S1x768_S1x256_0_256 : ∀ a, (![0, 256] : Fin 2 → Nat) a + S1x256.size a ≤ S1x768.size a
  inb_S64x768_S64x256_0_256 : ∀ a, (![0, 256] : Fin 2 → Nat) a + S64x256.size a ≤ S64x768.size a
  inb_S768x256_S256x256_512_0 : ∀ a, (![512, 0] : Fin 2 → Nat) a + S256x256.size a ≤ S768x256.size a
  inb_S1x768_S1x256_0_512 : ∀ a, (![0, 512] : Fin 2 → Nat) a + S1x256.size a ≤ S1x768.size a
  inb_S64x768_S64x256_0_512 : ∀ a, (![0, 512] : Fin 2 → Nat) a + S64x256.size a ≤ S64x768.size a
  inb_S64x256_S64x256_0_0 : ∀ a, (![0, 0] : Fin 2 → Nat) a + S64x256.size a ≤ S64x256.size a
  slices_S2048x64x256_S1x64x256_2047_0_0 : S2048x64x256.Slices ![2047, 0, 0] S1x64x256
  shapeCasts_S1x64x256_S64x256 : S1x64x256.ShapeCasts S64x256
  dot_S64x256_S256x768_S64x768_1_0_0_1_n_n_wf : DotDims.WF S64x256 S256x768 S64x768 [1] [0] [0] [1] [] []
  dot_S4096x256_S256x256_S4096x256_1_1_0_0_n_n_wf : DotDims.WF S4096x256 S256x256 S4096x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x256.size a ≤ S2048x64x256.size a
  hwx0_0 : ∀ i : grid0.Coords, EltTy.bits .f32 = 32 ∨ (Rect.block (s := S2048x64x256) S64x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x768.size a ≤ S64x768.size a
  hwx0_3 : ∀ i : grid0.Coords, EltTy.bits .f32 = 32 ∨ (Rect.block (s := S64x768) S64x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x64x256.size a ≤ S2048x64x256.size a
  hwx0_5 : ∀ i : grid0.Coords, EltTy.bits .f32 = 32 ∨ (Rect.block (s := S2048x64x256) S64x64x256.size (cc0_transform_5 i) (hinb0_5 i)).WholeWords (EltTy.packing .f32)

variable [Facts₀]

def dot_S64x256_S256x768_S64x768_1_0_0_1_n_n : DotDims S64x256 S256x768 S64x768 where
  lhsContracting := [1]
  rhsContracting := [0]
  lhsNonContracting := [0]
  rhsNonContracting := [1]
  lhsBatch := []
  rhsBatch := []
  wf := dot_S64x256_S256x768_S64x768_1_0_0_1_n_n_wf
def dot_S4096x256_S256x256_S4096x256_1_1_0_0_n_n : DotDims S4096x256 S256x256 S4096x256 where
  lhsContracting := [1]
  rhsContracting := [1]
  lhsNonContracting := [0]
  rhsNonContracting := [0]
  lhsBatch := []
  rhsBatch := []
  wf := dot_S4096x256_S256x256_S4096x256_1_1_0_0_n_n_wf

abbrev win0_0 : Pipeline.Window sig grid0 :=
  Pipeline.Window.ofSpec (Memref.whole main_arg0) S64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S64x64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x64x256 : Shape := ⟨3, ![2048, 64, 256]⟩
abbrev S64x256 : Shape := ⟨2, ![64, 256]⟩
abbrev S768x256 : Shape := ⟨2, ![768, 256]⟩
abbrev S768 : Shape := ⟨1, ![768]⟩
abbrev S2048x64x768 : Shape := ⟨3, ![2048, 64, 768]⟩
abbrev S1x1x768 : Shape := ⟨3, ![1, 1, 768]⟩
abbrev S256x768 : Shape := ⟨2, ![256, 768]⟩
abbrev S64x768 : Shape := ⟨2, ![64, 768]⟩
abbrev S1x768 : Shape := ⟨2, ![1, 768]⟩
abbrev S1x64x256 : Shape := ⟨3, ![1, 64, 256]⟩
abbrev S_ : Shape := ⟨0, ![]⟩

abbrev nBuf : Space → Nat
  | .hbm => 58
  | .vmem => 0
  | .smem => 0
  | _ => 0

abbrev bufTy : (tb : Table) → Fin (tcTables nBuf tb) → BufTy
  | .hbm, ⟨0, _⟩ => ⟨S2048x64x256, .f32⟩
  | .hbm, ⟨1, _⟩ => ⟨S64x256, .f32⟩
  | .hbm, ⟨2, _⟩ => ⟨S768x256, .f32⟩
  | .hbm, ⟨3, _⟩ => ⟨S768x256, .f32⟩
  | .hbm, ⟨4, _⟩ => ⟨S768, .f32⟩
  | .hbm, ⟨5, _⟩ => ⟨S768, .f32⟩
  | .hbm, ⟨6, _⟩ => ⟨S2048x64x768, .f32⟩
  | .hbm, ⟨7, _⟩ => ⟨S1x1x768, .f32⟩
  | .hbm, ⟨8, _⟩ => ⟨S2048x64x768, .f32⟩
  | .hbm, ⟨9, _⟩ => ⟨S2048x64x768, .f32⟩
  | .hbm, ⟨10, _⟩ => ⟨S256x768, .f32⟩
  | .hbm, ⟨11, _⟩ => ⟨S64x768, .f32⟩
  | .hbm, ⟨12, _⟩ => ⟨S1x768, .f32⟩
  | .hbm, ⟨13, _⟩ => ⟨S64x768, .f32⟩
  | .hbm, ⟨14, _⟩ => ⟨S64x768, .f32⟩
  | .hbm, ⟨15, _⟩ => ⟨S2048x64x256, .f32⟩
  | .hbm, ⟨16, _⟩ => ⟨S2048x64x256, .f32⟩
  | .hbm, ⟨17, _⟩ => ⟨S2048x64x256, .f32⟩
  | .hbm, ⟨18, _⟩ => ⟨S64x256, .f32⟩
  | .hbm, ⟨19, _⟩ => ⟨S64x256, .f32⟩
  | .hbm, ⟨20, _⟩ => ⟨S64x256, .f32⟩
  | .hbm, ⟨21, _⟩ => ⟨S1x64x256, .f32⟩
  | .hbm, ⟨22, _⟩ => ⟨S2048x64x256, .f32⟩
  | .hbm, ⟨23, _⟩ => ⟨S2048x64x256, .f32⟩
  | .hbm, ⟨24, _⟩ => ⟨S2048x64x256, .f32⟩
  | .hbm, ⟨25, _⟩ => ⟨S2048x64x256, .f32⟩
  | .hbm, ⟨26, _⟩ => ⟨S_, .f32⟩
  | .hbm, ⟨27, _⟩ => ⟨S2048x64x256, .f32⟩
  | .hbm, ⟨28, _⟩ => ⟨S2048x64x256, .f32⟩
  | .hbm, ⟨29, _⟩ => ⟨S_, .f32⟩
  | .hbm, ⟨30, _⟩ => ⟨S2048x64x256, .f32⟩
  | .hbm, ⟨31, _⟩ => ⟨S2048x64x256, .f32⟩
  | .hbm, ⟨32, _⟩ => ⟨S1x64x256, .f32⟩
  | .hbm, ⟨33, _⟩ => ⟨S2048x64x256, .f32⟩
  | .hbm, ⟨34, _⟩ => ⟨S2048x64x256, .f32⟩
  | .hbm, ⟨35, _⟩ => ⟨S2048x64x256, .f32⟩
  | .hbm, ⟨36, _⟩ => ⟨S2048x64x256, .f32⟩
  | .hbm, ⟨37, _⟩ => ⟨S_, .f32⟩
  | .hbm, ⟨38, _⟩ => ⟨S2048x64x256, .f32⟩
  | .hbm, ⟨39, _⟩ => ⟨S2048x64x256, .f32⟩
  | .hbm, ⟨40, _⟩ => ⟨S_, .f32⟩
  | .hbm, ⟨41, _⟩ => ⟨S2048x64x256, .f32⟩
  | .hbm, ⟨42, _⟩ => ⟨S2048x64x256, .f32⟩
  | .hbm, ⟨43, _⟩ => ⟨S1x64x256, .f32⟩
  | .hbm, ⟨44, _⟩ => ⟨S2048x64x256, .f32⟩
  | .hbm, ⟨45, _⟩ => ⟨S2048x64x256, .f32⟩
  | .hbm, ⟨46, _⟩ => ⟨S2048x64x256, .f32⟩
  | .hbm, ⟨47, _⟩ => ⟨S2048x64x256, .f32⟩
  | .hbm, ⟨48, _⟩ => ⟨S_, .f32⟩
  | .hbm, ⟨49, _⟩ => ⟨S2048x64x256, .f32⟩
  | .hbm, ⟨50, _⟩ => ⟨S2048x64x256, .f32⟩
  | .hbm, ⟨51, _⟩ => ⟨S2048x64x256, .f32⟩
  | .hbm, ⟨52, _⟩ => ⟨S1x64x256, .f32⟩
  | .hbm, ⟨53, _⟩ => ⟨S2048x64x256, .f32⟩
  | .hbm, ⟨54, _⟩ => ⟨S2048x64x256, .f32⟩
  | .hbm, ⟨55, _⟩ => ⟨S2048x64x256, .f32⟩
  | .hbm, ⟨56, _⟩ => ⟨S1x64x256, .f32⟩
  | .hbm, ⟨57, _⟩ => ⟨S64x256, .f32⟩
  | _, _ => ⟨S2048x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S2048x64x768_0_1_2 : S1x1x768.BroadcastsInDim S2048x64x768 (![0, 1, 2] : Fin 3 → Fin S2048x64x768.rank)
  transposes_S768x256_S256x768_1_0 : S768x256.Transposes [1, 0] S256x768
  bcast_S768_S1x768_1 : S768.BroadcastsInDim S1x768 (![1] : Fin 1 → Fin S1x768.rank)
  bcast_S1x768_S64x768_0_1 : S1x768.BroadcastsInDim S64x768 (![0, 1] : Fin 2 → Fin S64x768.rank)
  slices_S2048x64x768_S2048x64x256_0_0_0 : S2048x64x768.Slices ![0, 0, 0] S2048x64x256
  slices_S2048x64x768_S2048x64x256_0_0_256 : S2048x64x768.Slices ![0, 0, 256] S2048x64x256
  slices_S2048x64x768_S2048x64x256_0_0_512 : S2048x64x768.Slices ![0, 0, 512] S2048x64x256
  slices_S64x768_S64x256_0_0 : S64x768.Slices ![0, 0] S64x256
  slices_S64x768_S64x256_0_256 : S64x768.Slices ![0, 256] S64x256
  slices_S64x768_S64x256_0_512 : S64x768.Slices ![0, 512] S64x256
  bcast_S64x256_S1x64x256_1_2 : S64x256.BroadcastsInDim S1x64x256 (![1, 2] : Fin 2 → Fin S1x64x256.rank)
  bcast_S1x64x256_S2048x64x256_0_1_2 : S1x64x256.BroadcastsInDim S2048x64x256 (![0, 1, 2] : Fin 3 → Fin S2048x64x256.rank)
  bcast_S_S2048x64x256 : S_.BroadcastsInDim S2048x64x256 (![] : Fin 0 → Fin S2048x64x256.rank)
  slices_S2048x64x256_S1x64x256_2047_0_0 : S2048x64x256.Slices ![2047, 0, 0] S1x64x256
  shapeCasts_S1x64x256_S64x256 : S1x64x256.ShapeCasts S64x256
  dot_S2048x64x256_S768x256_S2048x64x768_2_1_01_0_n_n_wf : DotDims.WF S2048x64x256 S768x256 S2048x64x768 [2] [1] [0, 1] [0] [] []
  dot_S64x256_S256x768_S64x768_1_0_0_1_n_n_wf : DotDims.WF S64x256 S256x768 S64x768 [1] [0] [0] [1] [] []

variable [Facts₀]

def dot_S2048x64x256_S768x256_S2048x64x768_2_1_01_0_n_n : DotDims S2048x64x256 S768x256 S2048x64x768 where
  lhsContracting := [2]
  rhsContracting := [1]
  lhsNonContracting := [0, 1]
  rhsNonContracting := [0]
  lhsBatch := []
  rhsBatch := []
  wf := dot_S2048x64x256_S768x256_S2048x64x768_2_1_01_0_n_n_wf
def dot_S64x256_S256x768_S64x768_1_0_0_1_n_n : DotDims S64x256 S256x768 S64x768 where
  lhsContracting := [1]
  rhsContracting := [0]
  lhsNonContracting := [0]
  rhsNonContracting := [1]
  lhsBatch := []
  rhsBatch := []
  wf := dot_S64x256_S256x768_S64x768_1_0_0_1_n_n_wf

class Facts : Prop extends Facts₀ where

variable [Facts]
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.GateForms.lean ====
/-
  The logistic gate in its two spellings, on the extended reals.

  One program writes the gate of a pre-activation `a` as `1 / (1 + exp (-a))`, the other as
  `(1/2) · (tanh ((1/2) · a) + 1)`.  On the reals these are one function: with `u = exp (a/2)`,
  `tanh (a/2) + 1 = 2u / (u + 1/u)`, so half of it is `u² / (u² + 1) = 1 / (1 + exp (-a))`.  At the two
  infinities they agree as well, by the conventions of the operations there: at `+∞` the exponential of `-∞` is `0`
  and the hyperbolic tangent is `1`, both sides `1`; at `-∞` the quotient of `1` by `+∞` is `0` and the hyperbolic
  tangent is `-1`, both sides `0`.  So the identity needs no finiteness of `a`.
  The two literals involved are exact: the words `0x3F000000` and `0x3F800000` denote `1/2` and `1`.
-/
import Idealize.ShloMosaic.PureOps.Ideal

noncomputable section

namespace Cert.GateForms

open Idealize.ShloMosaic

/-- The word `0x3F000000` denotes one half. -/
theorem ofBits_half : Ideal.ofBits .f32 0x3F000000#32 = ((1 / 2 : ℝ) : EReal) := by
  simp [Ideal.ofBits, Ideal.ieee, -EReal.coe_mul]; norm_num

/-- The word `0x3F800000` denotes one. -/
theorem ofBits_one : Ideal.ofBits .f32 0x3F800000#32 = ((1 : ℝ) : EReal) := by
  simp [Ideal.ofBits, Ideal.ieee, -EReal.coe_mul]; norm_num

/-- On the reals: `1 / (1 + exp (-r)) = (1/2) · (tanh (r/2) + 1)`. -/
theorem real_logistic (r : ℝ) : 1 / (1 + Real.exp (-r)) = 1 / 2 * (Real.tanh (1 / 2 * r) + 1) := by
  have hu : 0 < Real.exp (1 / 2 * r) := Real.exp_pos _
  have h1 : Real.exp (-r) = (Real.exp (1 / 2 * r))⁻¹ * (Real.exp (1 / 2 * r))⁻¹ := by
    rw [← Real.exp_neg, ← Real.exp_add]; congr 1; ring
  have h2 : Real.exp (-(1 / 2 * r)) = (Real.exp (1 / 2 * r))⁻¹ := Real.exp_neg _
  rw [Real.tanh_eq_sinh_div_cosh, Real.sinh_eq, Real.cosh_eq, h1, h2]
  field_simp
  ring

/-- The gate's two spellings are one function of the pre-activation, at every extended real. -/
theorem logistic_forms (a : EReal) :
    Ideal.div ((1 : ℝ) : EReal) (((1 : ℝ) : EReal) + Ideal.exp (-a))
      = ((1 / 2 : ℝ) : EReal) * (Ideal.tanh (((1 / 2 : ℝ) : EReal) * a) + ((1 : ℝ) : EReal)) := by
  induction a using EReal.rec with
  | bot =>
    rw [EReal.neg_bot, EReal.coe_mul_bot_of_pos (by norm_num : (0 : ℝ) < 1 / 2)]
    show Ideal.div ((1 : ℝ) : EReal) (((1 : ℝ) : EReal) + ⊤) = ((1 / 2 : ℝ) : EReal) * (((-1 : ℝ) : EReal) + ((1 : ℝ) : EReal))
    rw [EReal.coe_add_top, ← EReal.coe_add]
    unfold Ideal.div
    rw [if_neg (by simp), EReal.inv_top, mul_zero]
    norm_num
  | top =>
    rw [EReal.neg_top, EReal.coe_mul_top_of_pos (by norm_num : (0 : ℝ) < 1 / 2)]
    show Ideal.div ((1 : ℝ) : EReal) (((1 : ℝ) : EReal) + ((0 : ℝ) : EReal)) = ((1 / 2 : ℝ) : EReal) * (((1 : ℝ) : EReal) + ((1 : ℝ) : EReal))
    rw [← EReal.coe_add, ← EReal.coe_add, ← EReal.coe_mul, Ideal.div_coe (by norm_num), ← EReal.coe_mul]
    norm_num
  | coe r =>
    rw [← EReal.coe_neg, ← EReal.coe_mul]
    show Ideal.div ((1 : ℝ) : EReal) (((1 : ℝ) : EReal) + ((Real.exp (-r) : ℝ) : EReal))
      = ((1 / 2 : ℝ) : EReal) * (((Real.tanh (1 / 2 * r) : ℝ) : EReal) + ((1 : ℝ) : EReal))
    have hpos : (1 + Real.exp (-r)) ≠ 0 := by have := Real.exp_pos (-r); linarith
    rw [← EReal.coe_add, ← EReal.coe_add, ← EReal.coe_mul, Ideal.div_coe hpos, ← EReal.coe_mul, one_mul,
      real_logistic]

end Cert.GateForms

end
-- ==== Proof.Cell.lean ====
/-
  One step of a gated recurrent cell from a fixed hidden state, entry by entry.

  With an input row `x` (256 entries), the three rows `w_r, w_z, w_n` of the stacked input weights that belong to
  output column `h`, the matching entries `b_r, b_z, b_n` of the input bias, the matching entries `g_r, g_z, g_n` of
  the hidden-side term (the hidden state times the hidden weights plus the hidden bias: the same for every time
  step, since the state is never updated) and the entry `s` of the hidden state:

      p_•  =  Σ_k x_k · w_•,k  +  b_•                      (the input-side term of a gate)
      r    =  gate (p_r + g_r),      z  =  gate (p_z + g_z)
      n    =  tanh (p_n + r · g_n)
      out  =  (1 - z) · n  +  z · s.

  `gate` is the logistic function, written through the hyperbolic tangent (Proof/GateForms.lean shows this is
  `1 / (1 + exp (-a))` at every extended real).  The stacked parameters have 768 = 3 · 256 rows: the reset gate's
  rows first, then the update gate's, then the candidate's; row `h` of gate number `g` is row `256 g + h`.
  `out` is the whole result array `[2048, 64, 256]`: entry `(t, b, h)` is the cell on row `(t, b)` of the input,
  rows `h`, `256 + h`, `512 + h` of the parameters, and entry `(b, h)` of the state.
-/
import proofs.«168351_j78554951844380_2_alg».proof.Proof.GateForms
import Idealize.ShloMosaic.Lib.ValueIdx

noncomputable section

open scoped BigOperators

namespace Cert.Cell

open Idealize.ShloMosaic Idealize.ShloMosaic.ValueIdx

/-- The logistic gate through the hyperbolic tangent. -/
def gate (a : EReal) : EReal := ((1 / 2 : ℝ) : EReal) * (Ideal.tanh (((1 / 2 : ℝ) : EReal) * a) + ((1 : ℝ) : EReal))

/-- The gate is the logistic function in its exponential spelling. -/
theorem gate_eq (a : EReal) : Ideal.div ((1 : ℝ) : EReal) (((1 : ℝ) : EReal) + Ideal.exp (-a)) = gate a :=
  Cert.GateForms.logistic_forms a

/-- The input-side term of a gate: the input row against a weight row, plus the bias entry. -/
def pre (x w : Fin 256 → EReal) (b : EReal) : EReal := (∑ k : Fin 256, x k * w k) + b

/-- One entry of the cell's output. -/
def cell (x wr wz wn : Fin 256 → EReal) (br bz bn gr gz gn s : EReal) : EReal :=
  (((1 : ℝ) : EReal) - gate (pre x wz bz + gz)) * Ideal.tanh (pre x wn bn + gate (pre x wr br + gr) * gn)
    + gate (pre x wz bz + gz) * s

/-- Row `h` of the reset gate in the stacked parameters. -/
def rowR (h : Fin 256) : Fin 768 := ⟨h.val, by have := h.isLt; omega⟩
/-- Row `h` of the update gate. -/
def rowZ (h : Fin 256) : Fin 768 := ⟨256 + h.val, by have := h.isLt; omega⟩
/-- Row `h` of the candidate. -/
def rowN (h : Fin 256) : Fin 768 := ⟨512 + h.val, by have := h.isLt; omega⟩

/-- Entry `(t, b, h)` of the result, from the input `X`, the stacked input weights `W` and bias `B`, the hidden-side
    term `Gh` and the hidden state `S`. -/
def outAt (X : (⟨3, ![2048, 64, 256]⟩ : Shape).Idx → EReal) (W : (⟨2, ![768, 256]⟩ : Shape).Idx → EReal)
    (B : (⟨1, ![768]⟩ : Shape).Idx → EReal) (Gh : (⟨2, ![64, 768]⟩ : Shape).Idx → EReal)
    (S : (⟨2, ![64, 256]⟩ : Shape).Idx → EReal) (t : Fin 2048) (b : Fin 64) (h : Fin 256) : EReal :=
  cell (fun k => X (ix3 t b k)) (fun k => W (ix2 (rowR h) k)) (fun k => W (ix2 (rowZ h) k)) (fun k => W (ix2 (rowN h) k))
    (B (ix1 (rowR h))) (B (ix1 (rowZ h))) (B (ix1 (rowN h)))
    (Gh (ix2 b (rowR h))) (Gh (ix2 b (rowZ h))) (Gh (ix2 b (rowN h))) (S (ix2 b h))

/-- The whole result array. -/
def out (X : (⟨3, ![2048, 64, 256]⟩ : Shape).Idx → EReal) (W : (⟨2, ![768, 256]⟩ : Shape).Idx → EReal)
    (B : (⟨1, ![768]⟩ : Shape).Idx → EReal) (Gh : (⟨2, ![64, 768]⟩ : Shape).Idx → EReal)
    (S : (⟨2, ![64, 256]⟩ : Shape).Idx → EReal) : (⟨3, ![2048, 64, 256]⟩ : Shape).Idx → EReal :=
  fun i => outAt X W B Gh S (i 0) (i 1) (i 2)

theorem out_apply (X : (⟨3, ![2048, 64, 256]⟩ : Shape).Idx → EReal) (W : (⟨2, ![768, 256]⟩ : Shape).Idx → EReal)
    (B : (⟨1, ![768]⟩ : Shape).Idx → EReal) (Gh : (⟨2, ![64, 768]⟩ : Shape).Idx → EReal)
    (S : (⟨2, ![64, 256]⟩ : Shape).Idx → EReal) (t : Fin 2048) (b : Fin 64) (h : Fin 256) :
    out X W B Gh S (ix3 t b h) = outAt X W B Gh S t b h := rfl

end Cert.Cell

end
-- ==== Proof.BodyCell.lean ====
/-
  The kernel body at one entry of its block.

  A block holds 64 consecutive time steps: `x0` is the block `[64, 64, 256]` of the input, and the body reads
  three slabs of 256 rows of the stacked input weights, three slabs of 256 entries of the input bias (a `[1, 768]`
  row), three slabs of 256 columns of the hidden-side term (a `[64, 768]` table) and the hidden state `[64, 256]`.
  It merges the block's `64 · 64` (step, batch) pairs into 4096 rows — pair `(q, b)` is row `64 q + b` —,
  multiplies them against a weight slab transposed (both second axes contracted, into a zero accumulator), splits
  the rows again and adds the bias slab, laid over all steps and batch entries.  The tables of shape `[64, 256]` are
  laid over the 64 steps.  The changes of float format on the way to the matrix unit are the identity on exact values.
  So at entry `(q, b, h)` the input-side term of a gate is `Σ_k x0 (q, b, k) · w (h, k) + bias (0, h)`, a table
  laid over the steps reads `(b, h)`, and the stored value is the cell of Proof/Cell.lean on those entries.
-/
import proofs.«168351_j78554951844380_2_alg».proof.Proof.Gen.KernelIdeal.Skeleton
import proofs.«168351_j78554951844380_2_alg».proof.Proof.LibRowBlocks
import proofs.«168351_j78554951844380_2_alg».proof.Proof.Cell
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx Cert.RowBlocks Cert.Cell

section AnyFloat
variable {F : FTy → Type} [FloatOps F]

/-- The input-side term of one gate over the whole block: the merged rows against a weight slab, split back,
    plus the bias slab laid over every (step, batch) pair. -/
def inTerm (x0 : Vec F S64x64x256 .f32) (wv : Vec F S256x256 .f32) (bv : Vec F S1x256 .f32) : FVec F S64x64x256 .f32 :=
  addf (shapeCast S64x64x256 (matmul dot_S4096x256_S256x256_S4096x256_1_1_0_0_n_n none (k0_pay2 x0) (truncf .bf16 wv bitsLt_bf16_f32) (constant S4096x256 .f32 0x00000000#32)) shapeCasts_S4096x256_S64x64x256)
    (broadcastTo S64x64x256 (shapeCast S1x1x256 (shapeCast S1x256 bv shapeCasts_S1x256_S1x256) shapeCasts_S1x256_S1x1x256) broadcasts_S1x1x256_S64x64x256)

/-- A `[64, 256]` table laid over the block's 64 steps (the state is laid this way). -/
def laid (sv : FVec F S64x256 .f32) : FVec F S64x64x256 .f32 :=
  broadcastTo S64x64x256 (shapeCast S1x64x256 sv shapeCasts_S64x256_S1x64x256) broadcasts_S1x64x256_S64x64x256

/-- A loaded slab of the hidden-side table laid over the steps: the same, after a cast to its own shape. -/
def overSteps (gv : Vec F S64x256 .f32) : FVec F S64x64x256 .f32 :=
  laid (shapeCast S64x256 gv shapeCasts_S64x256_S64x256)

/-- The gate applied entry by entry: half of the hyperbolic tangent of half the argument, plus one. -/
def gateV (u : FVec F S64x64x256 .f32) : FVec F S64x64x256 .f32 :=
  mulf (broadcast S64x64x256 (Scalar.ofBits .f32 0x3F000000#32))
    (addf (tanh (mulf (broadcast S64x64x256 (Scalar.ofBits .f32 0x3F000000#32)) u)) (broadcast S64x64x256 (Scalar.ofBits .f32 0x3F800000#32)))

/-- The reset gate over the block. -/
theorem pay3_eq (x0 : Vec F S64x64x256 .f32) (v3 : Vec F S256x256 .f32) (v5 : Vec F S1x256 .f32) (v12 : Vec F S64x256 .f32) :
    k0_pay3 x0 v3 v5 v12 = gateV (addf (inTerm x0 v3 v5) (overSteps v12)) := rfl

/-- The update gate's argument over the block. -/
theorem pay4_eq (x0 : Vec F S64x64x256 .f32) (v24 : Vec F S256x256 .f32) (v26 : Vec F S1x256 .f32) (v33 : Vec F S64x256 .f32) :
    k0_pay4 x0 v24 v26 v33 = addf (inTerm x0 v24 v26) (overSteps v33) := rfl

set_option maxRecDepth 65536 in
/-- The stored block from the reset gate `r`, the update gate's argument `a`, the candidate's slabs and the state. -/
theorem pay1_eq (x0 : Vec F S64x64x256 .f32) (r a : FVec F S64x64x256 .f32) (v45 : Vec F S256x256 .f32) (v47 : Vec F S1x256 .f32)
    (v54 v61 : Vec F S64x256 .f32) :
    k0_pay1 (k0_pay2 x0) r a (Scalar.ofBits .f32 0x3F000000#32) v45 v47 v54 v61
      = addf (mulf (subf (broadcast S64x64x256 (Scalar.ofBits .f32 0x3F800000#32)) (gateV a))
          (tanh (addf (inTerm x0 v45 v47) (mulf r (overSteps v54))))) (mulf (gateV a) (laid v61)) := by
  unfold k0_pay1 gateV inTerm overSteps laid
  rfl

end AnyFloat

/-! ## At the exact instance, entry by entry -/

/-- The merged rows: row `64 q + b` of the block viewed `[4096, 256]` is pair `(q, b)`. -/
theorem rows_apply (x0 : Vec Ideal S64x64x256 .f32) (q b : Fin 64) (k : Fin 256) (Q : Fin 4096) (hQ : Q.val = q.val * 64 + b.val) :
    k0_pay2 (F := Ideal) x0 (ix2 Q k) = x0 (ix3 q b k) := by
  unfold k0_pay2
  exact shapeCast_merge_apply (truncf (F := Ideal) .bf16 x0 bitsLt_bf16_f32) shapeCasts_S64x64x256_S4096x256 q b k Q hQ

/-- The input-side term of a gate at `(q, b, h)`. -/
theorem inTerm_apply (x0 : Vec Ideal S64x64x256 .f32) (wv : Vec Ideal S256x256 .f32) (bv : Vec Ideal S1x256 .f32)
    (q b : Fin 64) (h : Fin 256) :
    inTerm (F := Ideal) x0 wv bv (ix3 q b h) = pre (fun k => x0 (ix3 q b k)) (fun k => wv (ix2 h k)) (bv (ix2 (0 : Fin 1) h)) := by
  have hb := b.isLt
  have hq := q.isLt
  unfold inTerm pre
  rw [addf_apply]
  congr 1
  · rw [shapeCast_split_apply _ shapeCasts_S4096x256_S64x64x256 q b h ⟨q.val * 64 + b.val, by omega⟩ rfl]
    refine (Ideal.matmul_constant_zero_apply dot_S4096x256_S256x256_S4096x256_1_1_0_0_n_n none _ _ _).trans ?_
    refine (abT_sum dot_S4096x256_S256x256_S4096x256_1_1_0_0_n_n rfl rfl rfl rfl rfl rfl _ _ _ _).trans ?_
    refine Finset.sum_congr rfl fun k _ => ?_
    rw [rows_apply x0 q b k _ rfl]
    rfl
  · refine (broadcastTo_apply _ broadcasts_S1x1x256_S64x64x256 (ix3 q b h) (ix3 (0 : Fin 1) (0 : Fin 1) h) fun ax => ?_).trans ?_
    · match ax with
      | ⟨0, _⟩ => rfl
      | ⟨1, _⟩ => rfl
      | ⟨2, _⟩ => rfl
    · refine (shapeCast_apply _ shapeCasts_S1x256_S1x1x256 (ix3 (0 : Fin 1) (0 : Fin 1) h) (ix2 (0 : Fin 1) h) ?_).trans ?_
      · rw [Shape.rowMajor_val_three, Shape.rowMajor_val_two]; rfl
      · rw [shapeCast_self]

/-- A table laid over the steps reads, at `(q, b, h)`, its entry `(b, h)`. -/
theorem laid_apply (sv : FVec Ideal S64x256 .f32) (q b : Fin 64) (h : Fin 256) :
    laid (F := Ideal) sv (ix3 q b h) = sv (ix2 b h) := by
  unfold laid
  refine (broadcastTo_groups_apply _ broadcasts_S1x64x256_S64x64x256 q b h).trans ?_
  refine shapeCast_apply _ shapeCasts_S64x256_S1x64x256 (ix3 (0 : Fin 1) b h) (ix2 b h) ?_
  rw [Shape.rowMajor_val_three, Shape.rowMajor_val_two]; show b.val * 256 + h.val = (0 * 64 + b.val) * 256 + h.val; omega

/-- So does a loaded slab of the hidden-side table. -/
theorem overSteps_apply (gv : Vec Ideal S64x256 .f32) (q b : Fin 64) (h : Fin 256) :
    overSteps (F := Ideal) gv (ix3 q b h) = gv (ix2 b h) := by
  unfold overSteps
  rw [laid_apply, shapeCast_self]

/-- The gate entry by entry. -/
theorem gateV_apply (u : FVec Ideal S64x64x256 .f32) (i : S64x64x256.Idx) : gateV (F := Ideal) u i = gate (u i) := by
  show Ideal.ofBits .f32 0x3F000000#32 * (Ideal.tanh (Ideal.ofBits .f32 0x3F000000#32 * u i) + Ideal.ofBits .f32 0x3F800000#32) = _
  rw [Cert.GateForms.ofBits_half, Cert.GateForms.ofBits_one]
  rfl

/-- THE STORED VALUE at `(q, b, h)`: the cell on row `(q, b)` of the block, row `h` of each weight slab, entry
    `(0, h)` of each bias slab, entry `(b, h)` of each hidden-side slab and of the state. -/
theorem stored_apply (x0 : Vec Ideal S64x64x256 .f32) (w0 w1 w2 : Vec Ideal S256x256 .f32) (b0 b1 b2 : Vec Ideal S1x256 .f32)
    (g0 g1 g2 s : Vec Ideal S64x256 .f32) (q b : Fin 64) (h : Fin 256) :
    k0_pay1 (F := Ideal) (k0_pay2 x0) (k0_pay3 x0 w0 b0 g0) (k0_pay4 x0 w1 b1 g1) (Scalar.ofBits .f32 0x3F000000#32) w2 b2 g2 s (ix3 q b h)
      = cell (fun k => x0 (ix3 q b k)) (fun k => w0 (ix2 h k)) (fun k => w1 (ix2 h k)) (fun k => w2 (ix2 h k))
          (b0 (ix2 (0 : Fin 1) h)) (b1 (ix2 (0 : Fin 1) h)) (b2 (ix2 (0 : Fin 1) h))
          (g0 (ix2 b h)) (g1 (ix2 b h)) (g2 (ix2 b h)) (s (ix2 b h)) := by
  rw [pay1_eq, pay3_eq, pay4_eq]
  show (Ideal.ofBits .f32 0x3F800000#32 - gateV (F := Ideal) (addf (inTerm x0 w1 b1) (overSteps g1)) (ix3 q b h))
        * Ideal.tanh (inTerm (F := Ideal) x0 w2 b2 (ix3 q b h)
            + gateV (F := Ideal) (addf (inTerm x0 w0 b0) (overSteps g0)) (ix3 q b h) * overSteps (F := Ideal) g2 (ix3 q b h))
      + gateV (F := Ideal) (addf (inTerm x0 w1 b1) (overSteps g1)) (ix3 q b h) * laid (F := Ideal) s (ix3 q b h) = _
  rw [gateV_apply, gateV_apply, addf_apply, addf_apply, inTerm_apply, inTerm_apply, inTerm_apply,
    overSteps_apply, overSteps_apply, overSteps_apply, laid_apply, Cert.GateForms.ofBits_one]
  rfl

end Cert.KernelIdeal.Body

end
-- ==== Proof.KernelValue.lean ====
/-
  The kernel's run, read: the result array is the cell's array, and the second result its last time step.

  The grid has 32 points; point `t` holds steps `64 t … 64 t + 63` of the input and of the result (block index
  `(t, 0, 0)` in blocks of `[64, 64, 256]`), and the whole of every parameter: the stacked input weights, the
  input bias as a `[1, 768]` row (a reshape of the `[768]` argument made before the launch), the hidden-side term
  (computed before the launch: the state times the transposed hidden weights, plus the hidden bias laid over the
  batch) and the state.  So what point `t` writes back is block `t` of the cell's array (Proof/BodyCell.lean, with
  each loaded slab read where its rectangle says), the 32 blocks tile the 2048 steps, and the array ends as that
  array.  After the launch the program cuts step 2047 out of it and drops the unit axis.
-/
import proofs.«168351_j78554951844380_2_alg».proof.Proof.Gen.KernelIdeal.Frame
import proofs.«168351_j78554951844380_2_alg».proof.Proof.BodyCell
import Idealize.ShloMosaic.Lib.Pipeline.Value
import Idealize.ShloMosaic.Lib.StableHlo.Run
import Idealize.ShloMosaic.Lib.Tactic

set_option maxRecDepth 16384

noncomputable section

open scoped BigOperators

namespace Cert.KernelIdeal.CellValue

open Cert.KernelIdeal Cert.KernelIdeal.Gen Cert.KernelIdeal.Body Idealize.ShloMosaic Idealize.ShloMosaic.TcCoe Idealize.SL.Sem
open Idealize.ShloMosaic.ValueIdx Cert.Cell
open Idealize.ShloMosaic.Pipeline (Dat)

theorem hz3 : (![0, 0, 0] : Fin 3 → Nat) = fun _ => 0 := funext fun a => by fin_cases a <;> rfl
theorem hz2 : (![0, 0] : Fin 2 → Nat) = fun _ => 0 := funext fun a => by fin_cases a <;> rfl

/-! ## A slab loaded from a rank-2 buffer -/

/-- A load through a unit-stride rectangle of a rank-2 buffer reads, at `(p, q)`, the buffer at the rectangle's
    offsets plus `(p, q)`. -/
theorem ld2_apply {Val : EltTy → Type} {e : EltTy} {n0 n1 s0 s1 : ℕ} (X : (⟨2, ![n0, n1]⟩ : Shape).Idx → Val e)
    (off : Fin 2 → ℕ) (inb : ∀ a, off a + (![s0, s1] : Fin 2 → ℕ) a ≤ (⟨2, ![n0, n1]⟩ : Shape).size a)
    (p : Fin s0) (q : Fin s1) (P : Fin n0) (Q : Fin n1) (hP : P.val = off 0 + p.val) (hQ : Q.val = off 1 + q.val) :
    View.ld X (Rect.unit (s := ⟨2, ![n0, n1]⟩) off ![s0, s1] inb) (ix2 p q) = X (ix2 P Q) := by
  show X _ = X _
  congr 1
  funext a
  apply Fin.ext
  match a with
  | ⟨0, _⟩ => show off 0 + 1 * p.val = P.val; omega
  | ⟨1, _⟩ => show off 1 + 1 * q.val = Q.val; omega

/-! ## What the body stores, from what its buffers hold -/

/-- If the input's buffer holds steps `64 t …` of `X` and the other buffers the whole of `W`, the bias row of `B`,
    `Gh` and `S`, the body stores at `(q, b, h)` entry `(64 t + q, b, h)` of the cell's array. -/
theorem stored_eq_out
    (X : S2048x64x256.Idx → EReal) (W : S768x256.Idx → EReal) (B : S768.Idx → EReal) (Gh : S64x768.Idx → EReal) (S : S64x256.Idx → EReal)
    (x0 : Vec Ideal S64x64x256 .f32) (x1 : Vec Ideal S768x256 .f32) (x2 : Vec Ideal S1x768 .f32) (x3 : Vec Ideal S64x768 .f32)
    (x4 : Vec Ideal S64x256 .f32) (t : ℕ)
    (h0 : ∀ (q b : Fin 64) (k : Fin 256) (T : Fin 2048), T.val = 64 * t + q.val → x0 (ix3 q b k) = X (ix3 T b k))
    (h1 : ∀ (j : Fin 768) (k : Fin 256), x1 (ix2 j k) = W (ix2 j k))
    (h2 : ∀ j : Fin 768, x2 (ix2 (0 : Fin 1) j) = B (ix1 j))
    (h3 : ∀ (b : Fin 64) (j : Fin 768), x3 (ix2 b j) = Gh (ix2 b j))
    (h4 : ∀ (b : Fin 64) (h : Fin 256), x4 (ix2 b h) = S (ix2 b h))
    (q b : Fin 64) (h : Fin 256) (T : Fin 2048) (hT : T.val = 64 * t + q.val) :
    k0_pay1 (F := Ideal) (k0_pay2 (View.ld x0 r0_0)) (k0_pay3 (View.ld x0 r0_0) (View.ld x1 r0_1) (View.ld x2 r0_2) (View.ld x3 r0_3))
        (k0_pay4 (View.ld x0 r0_0) (View.ld x1 r0_4) (View.ld x2 r0_5) (View.ld x3 r0_6)) (Scalar.ofBits .f32 0x3F000000#32)
        (View.ld x1 r0_7) (View.ld x2 r0_8) (View.ld x3 r0_9) (View.ld x4 r0_10) (ix3 q b h)
      = Cert.Cell.out X W B Gh S (ix3 T b h) := by
  refine (stored_apply (View.ld x0 r0_0) (View.ld x1 r0_1) (View.ld x1 r0_4) (View.ld x1 r0_7) (View.ld x2 r0_2) (View.ld x2 r0_5)
    (View.ld x2 r0_8) (View.ld x3 r0_3) (View.ld x3 r0_6) (View.ld x3 r0_9) (View.ld x4 r0_10) q b h).trans ?_
  rw [out_apply]
  unfold outAt
  have hh := h.isLt
  have a0 : ∀ k, View.ld x0 r0_0 (ix3 q b k) = X (ix3 T b k) := fun k => by
    rw [View.ld_unit_zero (S := S64x64x256) hz3]; exact h0 q b k T hT
  have wR : ∀ k, View.ld x1 r0_1 (ix2 h k) = W (ix2 (rowR h) k) := fun k =>
    (ld2_apply x1 _ _ h k (rowR h) k (by show h.val = 0 + h.val; omega) (by show k.val = 0 + k.val; omega)).trans (h1 _ _)
  have wZ : ∀ k, View.ld x1 r0_4 (ix2 h k) = W (ix2 (rowZ h) k) := fun k =>
    (ld2_apply x1 _ _ h k (rowZ h) k (by show 256 + h.val = 256 + h.val; rfl) (by show k.val = 0 + k.val; omega)).trans (h1 _ _)
  have wN : ∀ k, View.ld x1 r0_7 (ix2 h k) = W (ix2 (rowN h) k) := fun k =>
    (ld2_apply x1 _ _ h k (rowN h) k (by show 512 + h.val = 512 + h.val; rfl) (by show k.val = 0 + k.val; omega)).trans (h1 _ _)
  have bR : View.ld x2 r0_2 (ix2 (0 : Fin 1) h) = B (ix1 (rowR h)) :=
    (ld2_apply x2 _ _ (0 : Fin 1) h (0 : Fin 1) (rowR h) (by show (0 : ℕ) = 0 + 0; rfl) (by show h.val = 0 + h.val; omega)).trans (h2 _)
  have bZ : View.ld x2 r0_5 (ix2 (0 : Fin 1) h) = B (ix1 (rowZ h)) :=
    (ld2_apply x2 _ _ (0 : Fin 1) h (0 : Fin 1) (rowZ h) (by show (0 : ℕ) = 0 + 0; rfl) (by show 256 + h.val = 256 + h.val; rfl)).trans (h2 _)
  have bN : View.ld x2 r0_8 (ix2 (0 : Fin 1) h) = B (ix1 (rowN h)) :=
    (ld2_apply x2 _ _ (0 : Fin 1) h (0 : Fin 1) (rowN h) (by show (0 : ℕ) = 0 + 0; rfl) (by show 512 + h.val = 512 + h.val; rfl)).trans (h2 _)
  have gR : View.ld x3 r0_3 (ix2 b h) = Gh (ix2 b (rowR h)) :=
    (ld2_apply x3 _ _ b h b (rowR h) (by show b.val = 0 + b.val; omega) (by show h.val = 0 + h.val; omega)).trans (h3 _ _)
  have gZ : View.ld x3 r0_6 (ix2 b h) = Gh (ix2 b (rowZ h)) :=
    (ld2_apply x3 _ _ b h b (rowZ h) (by show b.val = 0 + b.val; omega) (by show 256 + h.val = 256 + h.val; rfl)).trans (h3 _ _)
  have gN : View.ld x3 r0_9 (ix2 b h) = Gh (ix2 b (rowN h)) :=
    (ld2_apply x3 _ _ b h b (rowN h) (by show b.val = 0 + b.val; omega) (by show 512 + h.val = 512 + h.val; rfl)).trans (h3 _ _)
  have sS : View.ld x4 r0_10 (ix2 b h) = S (ix2 b h) := by
    rw [View.ld_unit_zero (S := S64x256) hz2]; exact h4 b h
  simp only [a0, wR, wZ, wN, bR, bZ, bN, gR, gZ, gN, sS]

/-- The same at any entry `y` of the block and any entry `i` of the array whose step is `64 t` plus `y`'s and whose
    other coordinates are `y`'s. -/
theorem stored_at
    (X : S2048x64x256.Idx → EReal) (W : S768x256.Idx → EReal) (B : S768.Idx → EReal) (Gh : S64x768.Idx → EReal) (S : S64x256.Idx → EReal)
    (x0 : Vec Ideal S64x64x256 .f32) (x1 : Vec Ideal S768x256 .f32) (x2 : Vec Ideal S1x768 .f32) (x3 : Vec Ideal S64x768 .f32)
    (x4 : Vec Ideal S64x256 .f32) (t : ℕ)
    (h0 : ∀ (q b : Fin 64) (k : Fin 256) (T : Fin 2048), T.val = 64 * t + q.val → x0 (ix3 q b k) = X (ix3 T b k))
    (h1 : ∀ (j : Fin 768) (k : Fin 256), x1 (ix2 j k) = W (ix2 j k))
    (h2 : ∀ j : Fin 768, x2 (ix2 (0 : Fin 1) j) = B (ix1 j))
    (h3 : ∀ (b : Fin 64) (j : Fin 768), x3 (ix2 b j) = Gh (ix2 b j))
    (h4 : ∀ (b : Fin 64) (h : Fin 256), x4 (ix2 b h) = S (ix2 b h))
    (y : S64x64x256.Idx) (i : S2048x64x256.Idx)
    (hi0 : (i 0).val = 64 * t + (y 0).val) (hi1 : (i 1).val = (y 1).val) (hi2 : (i 2).val = (y 2).val) :
    k0_pay1 (F := Ideal) (k0_pay2 (View.ld x0 r0_0)) (k0_pay3 (View.ld x0 r0_0) (View.ld x1 r0_1) (View.ld x2 r0_2) (View.ld x3 r0_3))
        (k0_pay4 (View.ld x0 r0_0) (View.ld x1 r0_4) (View.ld x2 r0_5) (View.ld x3 r0_6)) (Scalar.ofBits .f32 0x3F000000#32)
        (View.ld x1 r0_7) (View.ld x2 r0_8) (View.ld x3 r0_9) (View.ld x4 r0_10) y
      = Cert.Cell.out X W B Gh S i := by
  obtain ⟨q, b, h, rfl⟩ : ∃ (q b : Fin 64) (h : Fin 256), y = ix3 q b h := ⟨y 0, y 1, y 2, eq_ix3 y⟩
  obtain ⟨T, b', h', rfl⟩ : ∃ (T : Fin 2048) (b' : Fin 64) (h' : Fin 256), i = ix3 T b' h' := ⟨i 0, i 1, i 2, eq_ix3 i⟩
  obtain rfl : b' = b := Fin.ext hi1
  obtain rfl : h' = h := Fin.ext hi2
  exact stored_eq_out X W B Gh S x0 x1 x2 x3 x4 t h0 h1 h2 h3 h4 q b' h' T hi0

variable (m : (ℓ : Loc nD τ sig) → Buf (Elt Ideal) ℓ) (ρ : Dev nD → PrngReg)

/-! ## The arrays as the launch finds them -/

/-- The hidden-side term: the state against the transposed hidden weights, plus the hidden bias laid over the batch. -/
def hiddenSide (hid : FVec Ideal S64x256 .f32) (whh : FVec Ideal S768x256 .f32) (bhh : FVec Ideal S768 .f32) : FVec Ideal S64x768 .f32 :=
  addf (F := Ideal) (Host.dotGeneral (F := Ideal) dot_S64x256_S256x768_S64x768_1_0_0_1_n_n none hid
      (transpose S256x768 [1, 0] whh transposes_S768x256_S256x768_1_0))
    (broadcastInDim S64x768 ![0, 1] bcast_S1x768_S64x768_0_1 (broadcastInDim S1x768 ![1] bcast_S768_S1x768_1 bhh))

/-- The launch finds the hidden-side term in the fourth operand's array. -/
theorem V_hidden (c : Dev nD) : (V m c main_v5 : S64x768.Idx → EReal)
    = hiddenSide (m ((c : Thread nD τ).loc main_arg1)) (m ((c : Thread nD τ).loc main_arg3)) (m ((c : Thread nD τ).loc main_arg5)) := by
  show StableHlo.after hostOps0 (fun b => m (c, b)) (Proc.devRef .tc main_v5) = _
  after_results
  rfl

/-- And the input bias, as a row, in the third's. -/
theorem V_biasRow (c : Dev nD) : (V m c main_v0 : S1x768.Idx → EReal)
    = shapeCast S1x768 (m ((c : Thread nD τ).loc main_arg4)) shapeCasts_S768_S1x768 := by
  show StableHlo.after hostOps0 (fun b => m (c, b)) (Proc.devRef .tc main_v0) = _
  after_results
  rfl

theorem biasRow_apply (c : Dev nD) (j : Fin 768) :
    (V m c main_v0 : S1x768.Idx → EReal) (ix2 (0 : Fin 1) j) = (m ((c : Thread nD τ).loc main_arg4) : S768.Idx → EReal) (ix1 j) := by
  rw [V_biasRow]
  exact shapeCast_apply _ shapeCasts_S768_S1x768 (ix2 (0 : Fin 1) j) (ix1 j) (by
    rw [Shape.rowMajor_val_two, Shape.rowMajor_val_one]; show j.val = 0 * 768 + j.val; omega)

/-! ## The windows' blocks -/

/-- The printed index maps over the grid: the input and the result move one block of steps per point, every
    parameter stays at its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The input's block at point `t` is steps `64 t …` of the input. -/
theorem xblk_apply (c : Dev nD) (t : Fin cfg0.N) (q b : Fin 64) (k : Fin 256) (T : Fin 2048) (hT : T.val = 64 * t.val + q.val) :
    (iblk m c 0 t : Vec Ideal S64x64x256 .f32) (ix3 q b k) = (m ((c : Thread nD τ).loc main_arg0) : S2048x64x256.Idx → EReal) (ix3 T b k) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 64 + 1 * q.val = T.val; rw [e0, hT]; omega
  | ⟨1, _⟩ => show win0_0.index t (1 : Fin 3) * 64 + 1 * b.val = b.val; rw [e1]; omega
  | ⟨2, _⟩ => show win0_0.index t (2 : Fin 3) * 256 + 1 * k.val = k.val; rw [e2]; omega

/-- The weights' block is the whole of the stacked input weights. -/
theorem wblk_apply (c : Dev nD) (t : Fin cfg0.N) (j : Fin 768) (k : Fin 256) :
    (iblk m c 1 t : Vec Ideal S768x256 .f32) (ix2 j k) = (m ((c : Thread nD τ).loc main_arg2) : S768x256.Idx → EReal) (ix2 j k) := by
  obtain ⟨-, -, -, e0, e1, -⟩ := idx_facts t
  unfold iblk
  rw [View.read_apply]
  show V m c main_arg2 _ = _
  rw [V_main_arg2]
  congr 1
  funext a
  apply Fin.ext
  match a with
  | ⟨0, _⟩ => show win0_1.index t (0 : Fin 2) * 768 + 1 * j.val = j.val; rw [e0]; omega
  | ⟨1, _⟩ => show win0_1.index t (1 : Fin 2) * 256 + 1 * k.val = k.val; rw [e1]; omega

/-- The bias block is the input bias as a row. -/
theorem bblk_apply (c : Dev nD) (t : Fin cfg0.N) (j : Fin 768) :
    (iblk m c 2 t : Vec Ideal S1x768 .f32) (ix2 (0 : Fin 1) j) = (m ((c : Thread nD τ).loc main_arg4) : S768.Idx → EReal) (ix1 j) := by
  obtain ⟨-, -, -, -, -, e0, e1, -⟩ := idx_facts t
  unfold iblk
  rw [View.read_apply]
  show (V m c main_v0 : S1x768.Idx → EReal) _ = _
  refine (congrArg (V m c main_v0 : S1x768.Idx → EReal) (?_ : _ = ix2 (0 : Fin 1) j)).trans (biasRow_apply m c j)
  funext a
  apply Fin.ext
  match a with
  | ⟨0, _⟩ => show win0_2.index t (0 : Fin 2) * 1 + 1 * 0 = 0; rw [e0]
  | ⟨1, _⟩ => show win0_2.index t (1 : Fin 2) * 768 + 1 * j.val = j.val; rw [e1]; omega

/-- The hidden-side block is the whole hidden-side term. -/
theorem gblk_apply (c : Dev nD) (t : Fin cfg0.N) (b : Fin 64) (j : Fin 768) :
    (iblk m c 3 t : Vec Ideal S64x768 .f32) (ix2 b j) = (V m c main_v5 : S64x768.Idx → EReal) (ix2 b j) := by
  obtain ⟨-, -, -, -, -, -, -, e0, e1, -⟩ := idx_facts t
  unfold iblk
  rw [View.read_apply]
  show (V m c main_v5 : S64x768.Idx → EReal) _ = _
  congr 1
  funext a
  apply Fin.ext
  match a with
  | ⟨0, _⟩ => show win0_3.index t (0 : Fin 2) * 64 + 1 * b.val = b.val; rw [e0]; omega
  | ⟨1, _⟩ => show win0_3.index t (1 : Fin 2) * 768 + 1 * j.val = j.val; rw [e1]; omega

/-- The state's block is the whole state. -/
theorem sblk_apply (c : Dev nD) (t : Fin cfg0.N) (b : Fin 64) (h : Fin 256) :
    (iblk m c 4 t : Vec Ideal S64x256 .f32) (ix2 b h) = (m ((c : Thread nD τ).loc main_arg1) : S64x256.Idx → EReal) (ix2 b h) := by
  obtain ⟨-, -, -, -, -, -, -, -, -, e0, e1, -⟩ := idx_facts t
  unfold iblk
  rw [View.read_apply]
  show V m c main_arg1 _ = _
  rw [V_main_arg1]
  congr 1
  funext a
  apply Fin.ext
  match a with
  | ⟨0, _⟩ => show win0_4.index t (0 : Fin 2) * 64 + 1 * b.val = b.val; rw [e0]; omega
  | ⟨1, _⟩ => show win0_4.index t (1 : Fin 2) * 256 + 1 * h.val = h.val; rw [e1]; omega

/-! ## The result array -/

/-- The cell's array of the arguments, over the hidden-side term the launch finds. -/
def result (c : Dev nD) : S2048x64x256.Idx → EReal :=
  Cert.Cell.out (m ((c : Thread nD τ).loc main_arg0)) (m ((c : Thread nD τ).loc main_arg2)) (m ((c : Thread nD τ).loc main_arg4))
    (V m c main_v5) (m ((c : Thread nD τ).loc main_arg1))

/-- WHAT POINT `t` WRITES BACK is block `t` of the result array. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz3]
  obtain ⟨-, -, -, -, -, -, -, -, -, -, -, e0, e1, e2⟩ := idx_facts t
  funext j
  exact stored_at (m ((c : Thread nD τ).loc main_arg0)) (m ((c : Thread nD τ).loc main_arg2)) (m ((c : Thread nD τ).loc main_arg4))
    (V m c main_v5) (m ((c : Thread nD τ).loc main_arg1))
    (iblk m c 0 t) (iblk m c 1 t) (iblk m c 2 t) (iblk m c 3 t) (iblk m c 4 t) t.val
    (fun q b k T hT => xblk_apply m c t q b k T hT) (fun j k => wblk_apply m c t j k) (fun j => bblk_apply m c t j)
    (fun b j => gblk_apply m c t b j) (fun b h => sblk_apply m c t b h) j (((cfg0.win 5).blk t).view.emb j)
    (by show win0_5.index t (0 : Fin 3) * 64 + 1 * (j 0).val = 64 * t.val + (j 0).val; rw [e0]; omega)
    (by show win0_5.index t (1 : Fin 3) * 64 + 1 * (j 1).val = (j 1).val; rw [e1]; omega)
    (by show win0_5.index t (2 : Fin 3) * 256 + 1 * (j 2).val = (j 2).val; rw [e2]; omega)

/-- An index of the array is in point `t`'s block iff each coordinate is in the block's range on its axis. -/
theorem mem_blk (t : Fin cfg0.N) (i : S2048x64x256.Idx) :
    i ∈ ((cfg0.win 5).blk t).view.set ↔ ∀ a : Fin 3, win0_5.index t a * S64x64x256.size a ≤ (i a).val ∧ (i a).val < win0_5.index t a * S64x64x256.size a + S64x64x256.size a := by
  show i ∈ ((View.whole main_v6).slice (win0_5.rect t)).set ↔ _
  rw [View.set_slice_whole, Rect.mem_set_unit]
  exact Iff.rfl

/-- Every entry of the array is in the block of the point that holds its step. -/
theorem cover (i : S2048x64x256.Idx) : ∃ t : Fin cfg0.N, (cfg0.win 5).flush t = true ∧ i ∈ ((cfg0.win 5).blk t).view.set := by
  have hi0 : (i 0).val < 2048 := (i 0).isLt
  have hi1 : (i 1).val < 64 := (i 1).isLt
  have hi2 : (i 2).val < 256 := (i 2).isLt
  have hN : cfg0.N = 32 := N_0
  have htl : (i 0).val / 64 < cfg0.N := by rw [hN]; omega
  obtain ⟨-, -, -, -, -, -, -, -, -, -, -, e0, e1, e2⟩ := idx_facts ⟨(i 0).val / 64, htl⟩
  refine ⟨⟨(i 0).val / 64, htl⟩, flush0_5 _, ?_⟩
  rw [mem_blk]
  intro a
  match a with
  | ⟨0, _⟩ =>
    show win0_5.index ⟨(i 0).val / 64, htl⟩ (0 : Fin 3) * 64 ≤ (i 0).val ∧ (i 0).val < win0_5.index ⟨(i 0).val / 64, htl⟩ (0 : Fin 3) * 64 + 64
    rw [e0]; show (i 0).val / 64 * 64 ≤ (i 0).val ∧ (i 0).val < (i 0).val / 64 * 64 + 64; omega
  | ⟨1, _⟩ =>
    show win0_5.index ⟨(i 0).val / 64, htl⟩ (1 : Fin 3) * 64 ≤ (i 1).val ∧ (i 1).val < win0_5.index ⟨(i 0).val / 64, htl⟩ (1 : Fin 3) * 64 + 64
    rw [e1]; omega
  | ⟨2, _⟩ =>
    show win0_5.index ⟨(i 0).val / 64, htl⟩ (2 : Fin 3) * 256 ≤ (i 2).val ∧ (i 2).val < win0_5.index ⟨(i 0).val / 64, htl⟩ (2 : Fin 3) * 256 + 256
    rw [e2]; omega

/-- THE ARRAY after the run is the result array. -/
theorem final (c : Dev nD) : (dats m 0 c).arrAt 5 cfg0.N = result m c :=
  (dats m 0 c).arrAt_eq_of_cover 5 (result m c) (fun t _ => flushed_eq m c t) cover

/-! ## After the launch -/

/-- The last time step of a `[2048, 64, 256]` array as a `[64, 256]` table. -/
def lastStep (Y : (⟨S2048x64x256, .f32⟩ : BufTy).Contents (Elt Ideal)) : (⟨S64x256, .f32⟩ : BufTy).Contents (Elt Ideal) :=
  shapeCast S64x256 (extractStridedSlice S1x64x256 ![2047, 0, 0] Y slices_S2048x64x256_S1x64x256_2047_0_0) shapeCasts_S1x64x256_S64x256

/-- The second result, after the two host operations that follow the launch, is the last step of the array the
    launch left. -/
theorem tail_eq (c : Dev nD) :
    Pipeline.afterTail₀ cfgs (dats m) 0 (V0 m) [hostOps1] c main_v8 = lastStep ((dats m 0 c).arrAt 5 cfg0.N) := by
  unfold Pipeline.afterTail₀
  show StableHlo.after hostOps1 _ (Proc.devRef .tc main_v8) = _
  after_results
  rw [Pipeline.withArrays_arr spec0 launch0.win.arr_inj c _ _ 5]
  rfl

/-! ## The run, read -/

/-- Every weakly fair execution terminates with the first result the cell's array, the second its last step, and the
    arguments unchanged. -/
theorem run : θ_run defs (onTc (τ := τ) (main (F := Ideal))) ⟨m, fun _ => 0, ρ⟩ fun r => ∀ c : Dev nD,
      r.2.mem ((c.tc : Thread nD τ).loc main_v6) = result m c
      ∧ r.2.mem ((c.tc : Thread nD τ).loc main_v8) = lastStep (result m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 5).trans (final m c),
      (((h c).2 main_v8 (Pipeline.mem_restRefs_of main_v8 (by decide) (by decide))).trans (tail_eq m c)).trans (congrArg lastStep (final m c)),
      ((h c).1 0).trans (((dats m 0 c).arrAt_in 0 rfl _).trans ((A_eq m c 0).trans (V_main_arg0 m c))),
      ((h c).1 4).trans (((dats m 0 c).arrAt_in 4 rfl _).trans ((A_eq m c 4).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.CellValue

end
-- ==== Proof.RefCell.lean ====
/-
  The reference, entry by entry, is the cell.

  The reference contracts every input row against all 768 rows of the stacked input weights at once, adds the
  bias, and cuts the result into the three gates' column ranges `[0, 256)`, `[256, 512)`, `[512, 768)`; it cuts the
  hidden-side term (its stage `val_main_v8`: the state times the hidden weights plus the hidden bias, one table for
  all time steps) the same way and lays the pieces, and the state, over the 2048 steps.  Column `h` of a gate's range
  is column `h`, `256 + h`, `512 + h` of the whole: the rows `rowR h`, `rowZ h`, `rowN h` of Proof/Cell.lean.  The
  gates are written `1 / (1 + exp (-a))`, which is the cell's `gate a` at every extended real (`Cell.gate_eq`).
  The second result is row 2047 of the first, its leading unit axis dropped.
-/
import proofs.«168351_j78554951844380_2_alg».proof.Proof.Gen.ReferenceIdeal.Read
import proofs.«168351_j78554951844380_2_alg».proof.Proof.Cell

noncomputable section

open scoped BigOperators

namespace Cert.ReferenceIdeal.CellValue

open Cert.ReferenceIdeal Cert.ReferenceIdeal.Gen Cert.ReferenceIdeal.Read Idealize.ShloMosaic Idealize.ShloMosaic.ValueIdx Cert.Cell

variable (x0 : (⟨S2048x64x256, .f32⟩ : BufTy).Contents (Elt Ideal)) (x1 : (⟨S64x256, .f32⟩ : BufTy).Contents (Elt Ideal))
  (x2 x3 : (⟨S768x256, .f32⟩ : BufTy).Contents (Elt Ideal)) (x4 x5 : (⟨S768, .f32⟩ : BufTy).Contents (Elt Ideal))

/-- The input-side term of all three gates at `(t, b, j)`, `j` a column of the stacked 768. -/
theorem inSide_apply (t : Fin 2048) (b : Fin 64) (j : Fin 768) :
    val_main_v3 (F := Ideal) x0 x2 x4 (ix3 t b j) = pre (fun k => x0 (ix3 t b k)) (fun k => x2 (ix2 j k)) (x4 (ix1 j)) := by
  have e1 : ∀ k, lidx_main_v0 (ix3 t b j) k = ix3 t b k := fun k => funext fun a => by
    match a with
    | ⟨0, _⟩ => rfl
    | ⟨1, _⟩ => rfl
    | ⟨2, _⟩ => rfl
  have e2 : ∀ k, ridx_main_v0 (ix3 t b j) k = ix2 j k := fun k => funext fun a => by
    match a with
    | ⟨0, _⟩ => rfl
    | ⟨1, _⟩ => rfl
  have e3 : idx_main_v1 (idx_main_v2 (ix3 t b j)) = ix1 j := funext fun a => by
    match a with
    | ⟨0, _⟩ => rfl
  rw [val_main_v3_apply, val_main_v0_apply, val_main_v2_apply, val_main_v1_apply, e3]
  simp only [e1, e2]
  rfl

/-- THE FIRST RESULT at `(t, b, h)`: the cell, over the hidden-side stage. -/
theorem first_apply (t : Fin 2048) (b : Fin 64) (h : Fin 256) :
    val_main_v44 (F := Ideal) x0 x1 x2 x3 x4 x5 (ix3 t b h)
      = outAt x0 x2 x4 (val_main_v8 (F := Ideal) x1 x3 x5) x1 t b h := by
  have i9 : idx_main_v9 (ix3 t b h) = ix3 t b (rowR h) := funext fun a => by
    match a with
    | ⟨0, _⟩ => rfl
    | ⟨1, _⟩ => rfl
    | ⟨2, _⟩ => rfl
  have i10 : idx_main_v10 (ix3 t b h) = ix3 t b (rowZ h) := funext fun a => by
    match a with
    | ⟨0, _⟩ => rfl
    | ⟨1, _⟩ => rfl
    | ⟨2, _⟩ => rfl
  have i11 : idx_main_v11 (ix3 t b h) = ix3 t b (rowN h) := funext fun a => by
    match a with
    | ⟨0, _⟩ => rfl
    | ⟨1, _⟩ => rfl
    | ⟨2, _⟩ => rfl
  have g12 : idx_main_v12 (idx_main_v15 (idx_main_v16 (ix3 t b h))) = ix2 b (rowR h) := funext fun a => by
    match a with
    | ⟨0, _⟩ => rfl
    | ⟨1, _⟩ => rfl
  have g13 : idx_main_v13 (idx_main_v24 (idx_main_v25 (ix3 t b h))) = ix2 b (rowZ h) := funext fun a => by
    match a with
    | ⟨0, _⟩ => rfl
    | ⟨1, _⟩ => rfl
  have g14 : idx_main_v14 (idx_main_v33 (idx_main_v34 (ix3 t b h))) = ix2 b (rowN h) := funext fun a => by
    match a with
    | ⟨0, _⟩ => rfl
    | ⟨1, _⟩ => rfl
  have s41 : idx_main_v41 (idx_main_v42 (ix3 t b h)) = ix2 b h := funext fun a => by
    match a with
    | ⟨0, _⟩ => rfl
    | ⟨1, _⟩ => rfl
  simp only [val_main_v44_apply, val_main_v40_apply, val_main_v43_apply, val_main_v39_apply, val_main_v38_apply,
    val_main_cst_3_apply, val_main_v32_apply, val_main_v31_apply, val_main_cst_2_apply, val_main_v30_apply,
    val_main_v29_apply, val_main_cst_1_apply, val_main_v28_apply, val_main_v27_apply, val_main_v26_apply,
    val_main_v10_apply, val_main_v25_apply, val_main_v24_apply, val_main_v13_apply, val_main_v37_apply,
    val_main_v36_apply, val_main_v11_apply, val_main_v35_apply, val_main_v23_apply, val_main_v22_apply,
    val_main_cst_0_apply, val_main_v21_apply, val_main_v20_apply, val_main_cst_apply, val_main_v19_apply,
    val_main_v18_apply, val_main_v17_apply, val_main_v9_apply, val_main_v16_apply, val_main_v15_apply,
    val_main_v12_apply, val_main_v34_apply, val_main_v33_apply, val_main_v14_apply, val_main_v42_apply,
    val_main_v41_apply, i9, i10, i11, g12, g13, g14, s41, inSide_apply,
    Ideal.addf_def, Ideal.mulf_def, Ideal.subf_def, Ideal.hostDivf_def, Ideal.hostUnary_exp_def,
    Ideal.hostUnary_tanh_def, Ideal.hostNegf_def, Ideal.negf_def, Ideal.ofBits_def, Cert.GateForms.ofBits_one, gate_eq]
  rfl

/-- The first result is the cell's array over the hidden-side stage. -/
theorem first_eq : val_main_v44 (F := Ideal) x0 x1 x2 x3 x4 x5 = out x0 x2 x4 (val_main_v8 (F := Ideal) x1 x3 x5) x1 := by
  funext i
  obtain ⟨t, b, h, rfl⟩ : ∃ (t : Fin 2048) (b : Fin 64) (h : Fin 256), i = ix3 t b h := ⟨i 0, i 1, i 2, eq_ix3 i⟩
  rw [first_apply, out_apply]

/-- The last time step of a `[2048, 64, 256]` array as a `[64, 256]` table. -/
def lastStep (Y : S2048x64x256.Idx → EReal) : S64x256.Idx → EReal :=
  shapeCast S64x256 (extractStridedSlice S1x64x256 ![2047, 0, 0] Y slices_S2048x64x256_S1x64x256_2047_0_0) shapeCasts_S1x64x256_S64x256

/-- The second result is the last step of the first. -/
theorem second_eq : val_main_v46 (F := Ideal) x0 x1 x2 x3 x4 x5 = lastStep (val_main_v44 (F := Ideal) x0 x1 x2 x3 x4 x5) := rfl

end Cert.ReferenceIdeal.CellValue

end
-- ==== Proof.lean ====
/-
  A gated recurrent cell applied to 2048 time steps from one fixed hidden state, as a tiled kernel, against the same
  computation written with whole-array operations.

  Both programs compute, for every step `t`, batch entry `b` and column `h`,
      out (t, b, h) = (1 - z) · n + z · s (b, h),
      r = gate (p_r + g_r),   z = gate (p_z + g_z),   n = tanh (p_n + r · g_n),
  where `p_•` is the input row `x (t, b, ·)` against row `h` of a gate's 256 rows of the stacked input weights plus
  the bias entry, and `g_•` the entry of the hidden-side term (state times hidden weights plus hidden bias), which
  both programs compute by the same operations before anything else.  The second result is step 2047 of the first.
  The kernel cuts the steps into 32 blocks of 64 and contracts each block's 4096 (step, batch) rows against one
  gate's rows at a time; the other program contracts all rows against all 768 weight rows and cuts columns.  On
  exact values both contractions are the same sum over the 256 input columns.  The one place the programs differ in
  form is the gate: the kernel writes the logistic function through the hyperbolic tangent, the other program through
  the exponential; Proof/GateForms.lean shows the two agree at every extended real, the infinities included, so the
  equality of the results needs nothing of the inputs.
  Proof/Cell.lean states the cell; Proof/BodyCell.lean reads the kernel's body at an entry and
  Proof/KernelValue.lean its run; Proof/RefCell.lean reads the other program; here the claims are assembled.
-/
import proofs.«168351_j78554951844380_2_alg».proof.Defs
import proofs.«168351_j78554951844380_2_alg».proof.Proof.Gen.Kernel
import proofs.«168351_j78554951844380_2_alg».proof.Proof.Gen.Kernel.Frame
import proofs.«168351_j78554951844380_2_alg».proof.Proof.Gen.KernelIdeal
import proofs.«168351_j78554951844380_2_alg».proof.Proof.Gen.KernelIdeal.Frame
import proofs.«168351_j78554951844380_2_alg».proof.Proof.Gen.ReferenceIdeal
import proofs.«168351_j78554951844380_2_alg».proof.Proof.Gen.Pre_finite_inputs
import proofs.«168351_j78554951844380_2_alg».proof.Proof.Gen.ReferenceIdeal.Run
import proofs.«168351_j78554951844380_2_alg».proof.Proof.Gen.ReferenceIdeal.Read
import proofs.«168351_j78554951844380_2_alg».proof.Proof.KernelValue
import proofs.«168351_j78554951844380_2_alg».proof.Proof.RefCell
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel on exact values. -/
theorem frame_kernelIdeal : Cert.frame_KernelIdeal := fun m ρ _ => Cert.KernelIdeal.Gen.frame m ρ

/-- So does the whole-array program: its run, with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Reading the kernel on exact values rewrote no operation. -/
theorem preserves : Cert.preserves_Kernel_KernelIdeal := trivial

/-- The hidden-side term is the same operations of the same arguments in both programs. -/
theorem hidden_same (x1 : FVec Ideal Cert.KernelIdeal.S64x256 .f32) (x3 : FVec Ideal Cert.KernelIdeal.S768x256 .f32)
    (x5 : FVec Ideal Cert.KernelIdeal.S768 .f32) :
    Cert.KernelIdeal.CellValue.hiddenSide x1 x3 x5 = Cert.ReferenceIdeal.Read.val_main_v8 (F := Ideal) x1 x3 x5 := rfl

/-- And so is the cut of the last step. -/
theorem lastStep_same (Y : FVec Ideal Cert.KernelIdeal.S2048x64x256 .f32) :
    Cert.KernelIdeal.CellValue.lastStep Y = Cert.ReferenceIdeal.CellValue.lastStep Y := rfl

/-- From memories that agree on the arguments both programs end with the cell's array and its last step. -/
theorem algebraic : Cert.algebraic_KernelIdeal_ReferenceIdeal := by
  intro m ρ m' ρ' _ hagree
  refine ⟨fun c => Cert.KernelIdeal.CellValue.result m c,
    fun c => Cert.KernelIdeal.CellValue.lastStep (Cert.KernelIdeal.CellValue.result m c),
    Cert.KernelIdeal.CellValue.run m ρ, ?_⟩
  refine (θ_run Cert.ReferenceIdeal.defs _ _).mono (fun _ h c => ?_) (Cert.ReferenceIdeal.Value.run (F := Ideal) m' ρ')
  obtain ⟨a0, a1, a2, a3, a4, a5⟩ := hagree c
  have key : Cert.ReferenceIdeal.Value.res_main_v44 m' c = Cert.KernelIdeal.CellValue.result m c := by
    rw [Cert.ReferenceIdeal.Read.val_main_v44_eq, Cert.ReferenceIdeal.CellValue.first_eq, a0, a1, a2, a3, a4, a5]
    unfold Cert.KernelIdeal.CellValue.result
    rw [Cert.KernelIdeal.CellValue.V_hidden]
    rfl
  refine ⟨(h c).1.trans key, (h c).2.1.trans ?_, (h c).2.2⟩
  rw [Cert.ReferenceIdeal.Read.val_main_v46_eq, Cert.ReferenceIdeal.CellValue.second_eq,
    ← Cert.ReferenceIdeal.Read.val_main_v44_eq, key]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
